-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768x4 : Shape := ⟨3, ![256, 32768, 4]⟩
abbrev S256x256 : Shape := ⟨2, ![256, 256]⟩
abbrev S256 : Shape := ⟨1, ![256]⟩
abbrev S_ : Shape := ⟨0, ![]⟩

class Facts : Prop where
  bcast_S_S256x32768x4 : S_.BroadcastsInDim S256x32768x4 (![] : Fin 0 → Fin S256x32768x4.rank)
  reducesTo_S256x32768x4_S_d0_1_2 : S256x32768x4.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x32768x4 .f32) (main_arg1 : FVec F S256x256 .f32) (main_arg2 : FVec F S256 .f32) : IVec S_ 1 :=
  let main_v0 : FVec F S256x32768x4 .f32 := Host.absf main_arg0
  let main_cst : FVec F S_ .f32 := constant S_ .f32 0x7F800000#32
  let main_v1 : FVec F S256x32768x4 .f32 := broadcastInDim S256x32768x4 ![] bcast_S_S256x32768x4 main_cst
  let main_v2 : IVec S256x32768x4 1 := cmpf .olt main_v0 main_v1
  let main_c : IVec S_ 1 := constantI S_ 1 1#1
  let main_v3 : IVec S_ 1 := (fun x v => Host.reduce IntOp.andi x v reducesTo_S256x32768x4_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S256x32768x4 : Shape := ⟨3, ![256, 32768, 4]⟩
abbrev S256x256 : Shape := ⟨2, ![256, 256]⟩
abbrev S256 : Shape := ⟨1, ![256]⟩
abbrev S256x512x256 : Shape := ⟨3, ![256, 512, 256]⟩
abbrev S131072x256 : Shape := ⟨2, ![131072, 256]⟩
abbrev S_ : Shape := ⟨0, ![]⟩
abbrev S256x1 : Shape := ⟨2, ![256, 1]⟩
abbrev S1 : Shape := ⟨1, ![1]⟩
abbrev S1x1 : Shape := ⟨2, ![1, 1]⟩
abbrev S1x256 : Shape := ⟨2, ![1, 256]⟩
abbrev S8192x256 : Shape := ⟨2, ![8192, 256]⟩

abbrev nBuf : Space → Nat
  | .hbm => 33
  | .vmem => 6
  | .smem => 0
  | _ => 0

abbrev bufTy : (tb : Table) → Fin (tcTables nBuf tb) → BufTy
  | .hbm, ⟨0, _⟩ => ⟨S256x32768x4, .f32⟩
  | .hbm, ⟨1, _⟩ => ⟨S256x256, .f32⟩
  | .hbm, ⟨2, _⟩ => ⟨S256, .f32⟩
  | .hbm, ⟨3, _⟩ => ⟨S256, .i32⟩
  | .hbm, ⟨4, _⟩ => ⟨S256x512x256, .f32⟩
  | .hbm, ⟨5, _⟩ => ⟨S131072x256, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S1x1, .i32⟩
  | .hbm, ⟨19, _⟩ => ⟨S256x1, .i32⟩
  | .hbm, ⟨20, _⟩ => ⟨S256x1, .i1⟩
  | .hbm, ⟨21, _⟩ => ⟨S256x1, .i1⟩
  | .hbm, ⟨22, _⟩ => ⟨S_, .i1⟩
  | .hbm, ⟨23, _⟩ => ⟨S256, .i1⟩
  | .hbm, ⟨24, _⟩ => ⟨S256x256, .f32⟩
  | .hbm, ⟨25, _⟩ => ⟨S256x256, .i1⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S1x256, .f32⟩
  | .hbm, ⟨31, _⟩ => ⟨S131072x256, .f32⟩
  | .hbm, ⟨32, _⟩ => ⟨S256x512x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S256x32768x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x32768x4_S256x512x256 : S256x32768x4.ShapeCasts S256x512x256
  shapeCasts_S256x512x256_S131072x256 : S256x512x256.ShapeCasts S131072x256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x256_1 : S256.BroadcastsInDim S256x256 (![1] : Fin 1 → Fin S256x256.rank)
  bcast_S_S256x256 : S_.BroadcastsInDim S256x256 (![] : Fin 0 → Fin S256x256.rank)
  transposes_S256x256_S256x256_1_0 : S256x256.Transposes [1, 0] S256x256
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S131072x256_S256x512x256 : S131072x256.ShapeCasts S256x512x256
  gather_S256x256_S256x1_S256x256_0_1_n_n_1_1_2561_wf : GatherDims.WF S256x256 S256x1 S256x256 [0] [1] [] [1] [] 1 ![256, 1]
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S131072x256.size a
  hwx0_3 : ∀ i : grid0.Coords, EltTy.bits .f32 = 32 ∨ (Rect.block (s := S131072x256) S8192x256.size (cc0_transform_3 i) (hinb0_3 i)).WholeWords (EltTy.packing .f32)

variable [Facts₀]

def gather_S256x256_S256x1_S256x256_0_1_n_n_1_1_2561 : GatherDims S256x256 S256x1 S256x256 where
  offsetDims := [0]
  collapsedSliceDims := [1]
  operandBatchingDims := []
  startIndicesBatchingDims := []
  startIndexMap := [1]
  indexVectorDim := 1
  sliceSizes := ![256, 1]
  wf := gather_S256x256_S256x1_S256x256_0_1_n_n_1_1_2561_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v1) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x32768x4 : Shape := ⟨3, ![256, 32768, 4]⟩
abbrev S256x256 : Shape := ⟨2, ![256, 256]⟩
abbrev S256 : Shape := ⟨1, ![256]⟩
abbrev S512 : Shape := ⟨1, ![512]⟩
abbrev S512x1 : Shape := ⟨2, ![512, 1]⟩
abbrev S_ : Shape := ⟨0, ![]⟩
abbrev S64 : Shape := ⟨1, ![64]⟩
abbrev S1x64 : Shape := ⟨2, ![1, 64]⟩
abbrev S512x64 : Shape := ⟨2, ![512, 64]⟩
abbrev S512x64x1 : Shape := ⟨3, ![512, 64, 1]⟩
abbrev S256x512x64x4 : Shape := ⟨4, ![256, 512, 64, 4]⟩
abbrev S256x512x4x64 : Shape := ⟨4, ![256, 512, 4, 64]⟩
abbrev S256x512x256 : Shape := ⟨3, ![256, 512, 256]⟩
abbrev S1x1x256 : Shape := ⟨3, ![1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S256x32768x4, .f32⟩
  | .hbm, ⟨1, _⟩ => ⟨S256x256, .f32⟩
  | .hbm, ⟨2, _⟩ => ⟨S256, .f32⟩
  | .hbm, ⟨3, _⟩ => ⟨S512, .i32⟩
  | .hbm, ⟨4, _⟩ => ⟨S512x1, .i32⟩
  | .hbm, ⟨5, _⟩ => ⟨S_, .i32⟩
  | .hbm, ⟨6, _⟩ => ⟨S512x1, .i32⟩
  | .hbm, ⟨7, _⟩ => ⟨S512x1, .i32⟩
  | .hbm, ⟨8, _⟩ => ⟨S64, .i32⟩
  | .hbm, ⟨9, _⟩ => ⟨S1x64, .i32⟩
  | .hbm, ⟨10, _⟩ => ⟨S512x64, .i32⟩
  | .hbm, ⟨11, _⟩ => ⟨S512x64, .i32⟩
  | .hbm, ⟨12, _⟩ => ⟨S512x64, .i32⟩
  | .hbm, ⟨13, _⟩ => ⟨S_, .i32⟩
  | .hbm, ⟨14, _⟩ => ⟨S512x64, .i32⟩
  | .hbm, ⟨15, _⟩ => ⟨S512x64, .i1⟩
  | .hbm, ⟨16, _⟩ => ⟨S_, .i32⟩
  | .hbm, ⟨17, _⟩ => ⟨S512x64, .i32⟩
  | .hbm, ⟨18, _⟩ => ⟨S512x64, .i32⟩
  | .hbm, ⟨19, _⟩ => ⟨S512x64, .i32⟩
  | .hbm, ⟨20, _⟩ => ⟨S512x64x1, .i32⟩
  | .hbm, ⟨21, _⟩ => ⟨S256x512x64x4, .f32⟩
  | .hbm, ⟨22, _⟩ => ⟨S256x512x4x64, .f32⟩
  | .hbm, ⟨23, _⟩ => ⟨S256x512x256, .f32⟩
  | .hbm, ⟨24, _⟩ => ⟨S256x512x256, .f32⟩
  | .hbm, ⟨25, _⟩ => ⟨S1x1x256, .f32⟩
  | .hbm, ⟨26, _⟩ => ⟨S256x512x256, .f32⟩
  | .hbm, ⟨27, _⟩ => ⟨S256x512x256, .f32⟩
  | .hbm, ⟨28, _⟩ => ⟨S_, .f32⟩
  | .hbm, ⟨29, _⟩ => ⟨S256x512x256, .f32⟩
  | .hbm, ⟨30, _⟩ => ⟨S256x512x256, .f32⟩
  | _, _ => ⟨S256x32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_cst : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S64_S1x64_1 : S64.BroadcastsInDim S1x64 (![1] : Fin 1 → Fin S1x64.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S512x64_S512x64x1_0_1 : S512x64.BroadcastsInDim S512x64x1 (![0, 1] : Fin 2 → Fin S512x64x1.rank)
  transposes_S256x512x64x4_S256x512x4x64_0_1_3_2 : S256x512x64x4.Transposes [0, 1, 3, 2] S256x512x4x64
  shapeCasts_S256x512x4x64_S256x512x256 : S256x512x4x64.ShapeCasts S256x512x256
  bcast_S256_S1x1x256_2 : S256.BroadcastsInDim S1x1x256 (![2] : Fin 1 → Fin S1x1x256.rank)
  bcast_S1x1x256_S256x512x256_0_1_2 : S1x1x256.BroadcastsInDim S256x512x256 (![0, 1, 2] : Fin 3 → Fin S256x512x256.rank)
  bcast_S_S256x512x256 : S_.BroadcastsInDim S256x512x256 (![] : Fin 0 → Fin S256x512x256.rank)
  gather_S256x32768x4_S512x64x1_S256x512x64x4_03_1_n_n_1_2_25614_wf : GatherDims.WF S256x32768x4 S512x64x1 S256x512x64x4 [0, 3] [1] [] [1] [] 2 ![256, 1, 4]
  dot_S256x512x256_S256x256_S256x512x256_2_1_01_0_n_n_wf : DotDims.WF S256x512x256 S256x256 S256x512x256 [2] [1] [0, 1] [0] [] []

variable [Facts₀]

def gather_S256x32768x4_S512x64x1_S256x512x64x4_03_1_n_n_1_2_25614 : GatherDims S256x32768x4 S512x64x1 S256x512x64x4 where
  offsetDims := [0, 3]
  collapsedSliceDims := [1]
  operandBatchingDims := []
  startIndicesBatchingDims := []
  startIndexMap := [1]
  indexVectorDim := 2
  sliceSizes := ![256, 1, 4]
  wf := gather_S256x32768x4_S512x64x1_S256x512x64x4_03_1_n_n_1_2_25614_wf
def dot_S256x512x256_S256x256_S256x512x256_2_1_01_0_n_n : DotDims S256x512x256 S256x256 S256x512x256 where
  lhsContracting := [2]
  rhsContracting := [1]
  lhsNonContracting := [0, 1]
  rhsNonContracting := [0]
  lhsBatch := []
  rhsBatch := []
  wf := dot_S256x512x256_S256x256_S256x512x256_2_1_01_0_n_n_wf

class Facts : Prop extends Facts₀ where

variable [Facts]
-- ==== Proof.Payload.lean ====
/-
  The kernel body's arithmetic at one entry of the output block.

  The body loads a block `a : [8192, 256]` of rows, the whole `[256, 256]` matrix `wt` and the bias row `[1, 256]`,
  and stores `max (a · wt + bias) 0`. At row `r` and column `e` that is
  `max (Σ_k a[r, k] · wt[k, e] + bias[0, e]) 0`: the matrix product into a zero accumulator is the plain sum over the
  contracted axis, the bias row is repeated down the rows, and the shape casts to the same shape do nothing.
-/
import proofs.«131283_j52218212385438_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's left operand is read at the output's row … -/
theorem lhs_row (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
/-- … and at the contracted coordinate; -/
theorem lhs_col (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- the right operand at the contracted coordinate … -/
theorem rhs_row (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- … and at the output's column. -/
theorem rhs_col (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The matrix product of the body at `(r, e)`: the sum over the contracted axis `k` of `a[r, k] · wt[k, e]`. -/
theorem matmul_at (a : FVec Ideal S8192x256 .f32) (wt : FVec Ideal S256x256 .f32) (r : Fin 8192) (e : Fin 256) :
    FloatOps.matmul (F := Ideal) dot_S8192x256_S256x256_S8192x256_1_0_0_1_n_n none a wt (constant S8192x256 .f32 0x00000000#32) (ix2 r e)
      = ∑ k : Fin 256, a (ix2 r k) * wt (ix2 k e) := by
  rw [Ideal.matmul_constant_zero_apply,
    ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 r e)
      ((contrEquiv1 dot_S8192x256_S256x256_S8192x256_1_0_0_1_n_n 256 rfl rfl).symm k) = ix2 r k :=
    funext fun a => Fin.ext (by
      match a with
      | ⟨0, _⟩ => exact lhs_row _ _
      | ⟨1, _⟩ => exact (lhs_col _ _).trans hk)
  have er : dot_S8192x256_S256x256_S8192x256_1_0_0_1_n_n.rhsIdx (ix2 r e)
      ((contrEquiv1 dot_S8192x256_S256x256_S8192x256_1_0_0_1_n_n 256 rfl rfl).symm k) = ix2 k e :=
    funext fun a => Fin.ext (by
      match a with
      | ⟨0, _⟩ => exact (rhs_row _ _).trans hk
      | ⟨1, _⟩ => exact rhs_col _ _)
  rw [el, er]

/-- The bias row repeated down the rows, at `(r, e)`, is the row's entry `e`. -/
theorem bias_at (bias : FVec Ideal S1x256 .f32) (r : Fin 8192) (e : Fin 256) :
    broadcastTo S8192x256 bias broadcasts_S1x256_S8192x256 (ix2 r e) = bias (ix2 0 e) :=
  broadcastTo_apply bias broadcasts_S1x256_S8192x256 (ix2 r e) (ix2 0 e) (fun a => by
    match a with
    | ⟨0, _⟩ => show (0 : Nat) = if (1 : Nat) = 1 then 0 else _; rw [if_pos rfl]
    | ⟨1, _⟩ => show e.val = if (256 : Nat) = 1 then 0 else e.val; rw [if_neg (by decide)])

/-- The stored value at `(r, e)`. -/
theorem pay_at (a : Vec Ideal S8192x256 .f32) (wt : Vec Ideal S256x256 .f32) (bias : Vec Ideal S1x256 .f32)
    (r : Fin 8192) (e : Fin 256) :
    k0_pay1 (F := Ideal) a wt bias (ix2 r e)
      = max ((∑ k : Fin 256, a (ix2 r k) * wt (ix2 k e)) + bias (ix2 0 e)) (Ideal.ofBits .f32 0x00000000#32) := by
  unfold k0_pay1
  rw [shapeCast_self, shapeCast_self, shapeCast_self]
  show max (FloatOps.matmul (F := Ideal) dot_S8192x256_S256x256_S8192x256_1_0_0_1_n_n none a wt (constant S8192x256 .f32 0x00000000#32) (ix2 r e)
    + broadcastTo S8192x256 bias broadcasts_S1x256_S8192x256 (ix2 r e)) (Ideal.ofBits .f32 0x00000000#32) = _
  rw [matmul_at, bias_at]

/-- The same at any index of the block. -/
theorem pay_at' (a : Vec Ideal S8192x256 .f32) (wt : Vec Ideal S256x256 .f32) (bias : Vec Ideal S1x256 .f32)
    (i : S8192x256.Idx) :
    k0_pay1 (F := Ideal) a wt bias i
      = max ((∑ k : Fin 256, a (ix2 (i 0) k) * wt (ix2 k (i 1))) + bias (ix2 0 (i 1))) (Ideal.ofBits .f32 0x00000000#32) := by
  obtain ⟨r, e, rfl⟩ : ∃ (r : Fin 8192) (e : Fin 256), i = ix2 r e := ⟨i 0, i 1, eq_ix2 i⟩
  exact pay_at a wt bias r e

/-- What the whole launch computes from the three arrays it is laid over: every block of 8192 rows of `A` goes through
    the body against the same matrix `B` and bias row `C`, so row `r`, column `e` of the result is
    `max (Σ_k A[r, k] · B[k, e] + C[0, e]) 0` whatever block the row lies in. -/
def rowsOut (A : S131072x256.Idx → EReal) (B : S256x256.Idx → EReal) (C : S1x256.Idx → EReal) : S131072x256.Idx → EReal :=
  fun i => max ((∑ k : Fin 256, A (ix2 (i 0) k) * B (ix2 k (i 1))) + C (ix2 0 (i 1))) (Ideal.ofBits .f32 0x00000000#32)

end Cert.KernelIdeal.Body

end
-- ==== Proof.KernelValue.lean ====
/-
  The output array after the launch.

  The grid has 16 points; point `t` works on rows `t·8192 … t·8192 + 8191` of the row matrix and of the output, and on
  the whole weight matrix and bias row. What point `t` writes back is therefore block `t` of one array-wide function
  (`rowsOut`): an entry of the block at local row `r` is the body's value at the array's row `t·8192 + r`. The 16 blocks
  tile the output's 131072 rows — row `r` lies in block `r / 8192` — so after the launch the output array is `rowsOut` of
  the three arrays the launch was laid over.
-/
import proofs.«131283_j52218212385438_2_alg».proof.Proof.Gen.KernelIdeal.Frame
import proofs.«131283_j52218212385438_2_alg».proof.Proof.Payload
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Body

variable (m : (ℓ : Loc nD τ sig) → Buf (Elt Ideal) ℓ) (ρ : Dev nD → PrngReg)

theorem zero_offsets : (![0, 0] : Fin 2 → Nat) = fun _ => 0 := funext fun a => by fin_cases a <;> rfl

/-- The four windows' block indices at every grid point, decided over the 16 points: the row matrix and the output move
    with the point along the rows, the weight matrix and the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rowsOut` of the arrays as the launch finds them. -/
theorem flushed_eq (c : Dev nD) (t : Fin cfg0.N) :
    (dats m 0 c).flushed 3 t
      = ((cfg0.win 3).blk t).view.read (Elt Ideal) (rowsOut (V m c main_v1) (V m c main_v3) (V m c main_v4)) := by
  show (cfg0.win 3).cut (grid0.coords t) ((dats m 0 c).after 3 t) = _
  rw [after0_3]
  unfold out0_3
  rw [View.canon_unit_zero zero_offsets]
  simp only [View.ld_unit_zero (S := S8192x256) zero_offsets, View.ld_unit_zero (S := S256x256) zero_offsets,
    View.ld_unit_zero (S := S1x256) zero_offsets]
  obtain ⟨e0, e1, e2, e3, e4, e5, e6, e7⟩ := block_indices t
  funext y
  have hy0 : (y 0).val < 8192 := (y 0).isLt
  have hy1 : (y 1).val < 256 := (y 1).isLt
  show k0_pay1 (F := Ideal) (iblk m c 0 t) (iblk m c 1 t) (iblk m c 2 t) ((cfg0.win 3).xinj (grid0.coords t) y)
    = rowsOut (V m c main_v1) (V m c main_v3) (V m c main_v4) (((cfg0.win 3).blk t).view.emb y)
  refine (pay_at' (iblk m c 0 t) (iblk m c 1 t) (iblk m c 2 t) ((cfg0.win 3).xinj (grid0.coords t) y)).trans ?_
  unfold rowsOut
  have h0 : ∀ k : Fin 256, iblk m c 0 t (ix2 ((cfg0.win 3).xinj (grid0.coords t) y 0) k)
      = V m c main_v1 (ix2 ((((cfg0.win 3).blk t).view.emb y) 0) k) := fun k => by
    show V m c main_v1 (((cfg0.win 0).blk t).view.emb (ix2 ((cfg0.win 3).xinj (grid0.coords t) y 0) k)) = _
    refine congrArg (V m c main_v1) (funext fun a => Fin.ext ?_)
    match a with
    | ⟨0, _⟩ =>
      show win0_0.index t (0 : Fin 2) * 8192 + 1 * (y 0).val = win0_3.index t (0 : Fin 2) * 8192 + 1 * (y 0).val
      omega
    | ⟨1, _⟩ =>
      show win0_0.index t (1 : Fin 2) * 256 + 1 * k.val = k.val
      omega
  have h1 : ∀ k : Fin 256, iblk m c 1 t (ix2 k ((cfg0.win 3).xinj (grid0.coords t) y 1))
      = V m c main_v3 (ix2 k ((((cfg0.win 3).blk t).view.emb y) 1)) := fun k => by
    show V m c main_v3 (((cfg0.win 1).blk t).view.emb (ix2 k ((cfg0.win 3).xinj (grid0.coords t) y 1))) = _
    refine congrArg (V m c main_v3) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (y 1).val = win0_3.index t (1 : Fin 2) * 256 + 1 * (y 1).val
      omega
  have h2 : iblk m c 2 t (ix2 0 ((cfg0.win 3).xinj (grid0.coords t) y 1))
      = V m c main_v4 (ix2 0 ((((cfg0.win 3).blk t).view.emb y) 1)) := by
    show V m c main_v4 (((cfg0.win 2).blk t).view.emb (ix2 0 ((cfg0.win 3).xinj (grid0.coords t) y 1))) = _
    refine congrArg (V m c main_v4) (funext fun a => Fin.ext ?_)
    match a with
    | ⟨0, _⟩ =>
      show win0_2.index t (0 : Fin 2) * 1 + 1 * 0 = 0
      omega
    | ⟨1, _⟩ =>
      show win0_2.index t (1 : Fin 2) * 256 + 1 * (y 1).val = win0_3.index t (1 : Fin 2) * 256 + 1 * (y 1).val
      omega
  exact congrArg₂ max (congrArg₂ (· + ·) (Finset.sum_congr rfl fun k _ => congrArg₂ (· * ·) (h0 k) (h1 k)) h2) rfl

/-- An index of the output array lies in point `t`'s block iff each coordinate lies in the block's range on its axis. -/
theorem mem_blk (t : Fin cfg0.N) (i : S131072x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v5).slice (win0_3.rect t)).set ↔ _
  rw [View.set_slice_whole, Rect.mem_set_unit]
  exact Iff.rfl

/-- Every index of the output array lies in the block of the point its row falls to. -/
theorem cover (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : grid0.N = 16 := N_0
  have ht : (i 0).val / 8192 < grid0.N := by rw [hN]; omega
  refine ⟨⟨(i 0).val / 8192, ht⟩, flush0_3 _, ?_⟩
  rw [mem_blk]
  obtain ⟨e0, e1, e2, e3, e4, e5, e6, e7⟩ := block_indices ⟨(i 0).val / 8192, ht⟩
  have e6' : win0_3.index ⟨(i 0).val / 8192, ht⟩ (0 : Fin 2) = (i 0).val / 8192 := e6
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    omega
  | ⟨1, _⟩ =>
    show win0_3.index ⟨(i 0).val / 8192, ht⟩ (1 : Fin 2) * 256 ≤ (i 1).val
      ∧ (i 1).val < win0_3.index ⟨(i 0).val / 8192, ht⟩ (1 : Fin 2) * 256 + 256
    omega

/-- The output array after the launch. -/
theorem final (c : Dev nD) :
    (dats m 0 c).arrAt 3 cfg0.N = rowsOut (V m c main_v1) (V m c main_v3) (V m c main_v4) :=
  (dats m 0 c).arrAt_eq_of_cover 3 _ (fun t _ => flushed_eq m c t) cover

end Cert.KernelIdeal.KValue

end
-- ==== Proof.Spec.lean ====
/-
  The mathematics of the certificate, with no program in sight.

  An input `x : [256, 32768, 4]` is cut into 512 patches of 64 time steps: patch `n` holds the steps
  `n·64 + j`, `j < 64`. A patch's 256 features are its 64 steps of each of the 4 channels. The feature
  vector can be listed channel-major (feature `d = c·64 + j`) or step-major (position `k = j·4 + c`, the
  order in which the numbers lie in memory). The result is a linear layer followed by a rectifier,
  `out[b, n, e] = max (Σ_d feat[b, n, d] · W[e, d] + bias[e]) 0`.
  Summed channel-major against `W[e, d]`, or step-major against `W[e, c·64 + j]`, the 256 products are the
  same products in another order, and a finite sum of extended reals does not depend on the order of its terms.
-/
import Idealize.ShloMosaic.PureOps.Ideal
import Idealize.ShloMosaic.PureOps.Ideal.Laws
import Idealize.ShloMosaic.Lib.ValueIdx

noncomputable section

open scoped BigOperators

namespace Cert.PatchLinear

open Idealize.ShloMosaic Idealize.ShloMosaic.ValueIdx

/-- Time step `n·64 + j`: step `j` of patch `n`. -/
def step (n : Fin 512) (j : Fin 64) : Fin 32768 :=
  ⟨n.val * 64 + j.val, by have := n.isLt; have := j.isLt; omega⟩

/-- The channel of the channel-major feature `d = c·64 + j`. -/
def featChan (d : Fin 256) : Fin 4 := ⟨d.val / 64, by have := d.isLt; omega⟩
/-- The step inside the patch of the channel-major feature `d = c·64 + j`. -/
def featPos (d : Fin 256) : Fin 64 := ⟨d.val % 64, by omega⟩

/-- The step inside the patch of the step-major position `k = j·4 + c`. -/
def rawPos (k : Fin 256) : Fin 64 := ⟨k.val / 4, by have := k.isLt; omega⟩
/-- The channel of the step-major position `k = j·4 + c`. -/
def rawChan (k : Fin 256) : Fin 4 := ⟨k.val % 4, by omega⟩

/-- The channel-major feature that lies at step-major position `k = j·4 + c`: `c·64 + j`. -/
def unshuffle (k : Fin 256) : Fin 256 := ⟨(k.val % 4) * 64 + k.val / 4, by have := k.isLt; omega⟩

theorem featPos_unshuffle (k : Fin 256) : featPos (unshuffle k) = rawPos k :=
  Fin.ext (by show ((k.val % 4) * 64 + k.val / 4) % 64 = k.val / 4; have := k.isLt; omega)

theorem featChan_unshuffle (k : Fin 256) : featChan (unshuffle k) = rawChan k :=
  Fin.ext (by show ((k.val % 4) * 64 + k.val / 4) / 64 = k.val % 4; have := k.isLt; omega)

/-- The two listings of a patch's features differ by a permutation of the 256 places. -/
def unshuffleEquiv : Fin 256 ≃ Fin 256 where
  toFun := unshuffle
  invFun d := ⟨(d.val % 64) * 4 + d.val / 64, by have := d.isLt; omega⟩
  left_inv k := Fin.ext (by
    show (((k.val % 4) * 64 + k.val / 4) % 64) * 4 + ((k.val % 4) * 64 + k.val / 4) / 64 = k.val
    have := k.isLt; omega)
  right_inv d := Fin.ext (by
    show (((d.val % 64) * 4 + d.val / 64) % 4) * 64 + ((d.val % 64) * 4 + d.val / 64) / 4 = d.val
    have := d.isLt; omega)

/-- A sum over the step-major positions of a function of the feature found there is the sum over the features. -/
theorem sum_unshuffle (f : Fin 256 → EReal) : ∑ k : Fin 256, f (unshuffle k) = ∑ d : Fin 256, f d :=
  Equiv.sum_comp unshuffleEquiv f

/-- One entry of the result: the linear layer over the patch's channel-major features, then the rectifier. The zero is
    kept as the word both programs spell it with. -/
def linRelu (x : FVec Ideal ⟨3, ![256, 32768, 4]⟩ .f32) (W : FVec Ideal ⟨2, ![256, 256]⟩ .f32)
    (bias : FVec Ideal ⟨1, ![256]⟩ .f32) (b : Fin 256) (n : Fin 512) (e : Fin 256) : EReal :=
  max ((∑ d : Fin 256, x (ix3 b (step n (featPos d)) (featChan d)) * W (ix2 e d)) + bias (ix1 e))
    (Ideal.ofBits .f32 0x00000000#32)

/-- The whole result array. -/
def out (x : FVec Ideal ⟨3, ![256, 32768, 4]⟩ .f32) (W : FVec Ideal ⟨2, ![256, 256]⟩ .f32)
    (bias : FVec Ideal ⟨1, ![256]⟩ .f32) : FVec Ideal ⟨3, ![256, 512, 256]⟩ .f32 :=
  fun i => linRelu x W bias (i 0) (i 1) (i 2)

/-- The same entry summed in memory order: position `k = j·4 + c` of the patch against the weight of feature
    `c·64 + j`. -/
theorem linRelu_raw (x : FVec Ideal ⟨3, ![256, 32768, 4]⟩ .f32) (W : FVec Ideal ⟨2, ![256, 256]⟩ .f32)
    (bias : FVec Ideal ⟨1, ![256]⟩ .f32) (b : Fin 256) (n : Fin 512) (e : Fin 256) :
    max ((∑ k : Fin 256, x (ix3 b (step n (rawPos k)) (rawChan k)) * W (ix2 e (unshuffle k))) + bias (ix1 e))
      (Ideal.ofBits .f32 0x00000000#32) = linRelu x W bias b n e := by
  unfold linRelu
  rw [← sum_unshuffle (fun d => x (ix3 b (step n (featPos d)) (featChan d)) * W (ix2 e d))]
  simp only [featPos_unshuffle, featChan_unshuffle]

end Cert.PatchLinear

end
-- ==== Proof.LibWords.lean ====
/-
  Small naturals as signed 32-bit words, and a conjunction of ones.

  A natural below 2³¹ written as a 32-bit word reads back, signed, as itself. So such a word is not negative, a
  wrap-around of negative indices leaves it alone, comparisons between two such words are the comparisons of the
  naturals, and clamping it into a range it already lies in does nothing. A left fold of one-bit words by `and` from 1
  over words that are all 1 is 1; so is a reduction by `and` from 1 of an array of ones.
-/
import Idealize.ShloMosaic.PureOps
import Idealize.ShloMosaic.Lib.ValueIdx
import Idealize.ShloMosaic.Lib.Affine
import Idealize.ShloMosaic.PureOps.Reduce

noncomputable section

namespace Cert.LibWords

open Idealize.ShloMosaic Idealize.ShloMosaic.ValueIdx

/-- A natural below 2³¹, as a 32-bit word, reads back signed as itself. -/
theorem toInt_ofNat_small (p : Nat) (hp : p < 2147483648) : (BitVec.ofNat 32 p).toInt = (p : Int) := by
  have hm : p % 2 ^ 32 = p := by omega
  rw [BitVec.toInt_eq_toNat_of_lt (by rw [BitVec.toNat_ofNat]; omega), BitVec.toNat_ofNat, hm]

/-- Read signed and made a natural again, it is the natural. -/
theorem toNat_toInt_ofNat_small (p : Nat) (hp : p < 2147483648) : (BitVec.ofNat 32 p).toInt.toNat = p := by
  rw [toInt_ofNat_small p hp, Int.toNat_natCast]

/-- It is not below zero … -/
theorem slt_zero_ofNat_small (p : Nat) (hp : p < 2147483648) : IntOp.cmpi .slt (BitVec.ofNat 32 p) 0#32 = 0#1 := by
  refine eq_zero_of_ne_one fun h => ?_
  have := IntOp.cmpi_slt.1 h
  rw [toInt_ofNat_small p hp] at this
  have h0 : (0#32 : BitVec 32).toInt = 0 := by decide
  omega

/-- … it is at least zero … -/
theorem sge_zero_ofNat_small (p : Nat) (hp : p < 2147483648) : IntOp.cmpi .sge (BitVec.ofNat 32 p) 0#32 = 1#1 := by
  refine IntOp.cmpi_sge.2 ?_
  rw [toInt_ofNat_small p hp]
  have h0 : (0#32 : BitVec 32).toInt = 0 := by decide
  omega

/-- … and two such words compare as the naturals do. -/
theorem sle_ofNat_small (p q : Nat) (hp : p < 2147483648) (hq : q < 2147483648) (hpq : p ≤ q) :
    IntOp.cmpi .sle (BitVec.ofNat 32 p) (BitVec.ofNat 32 q) = 1#1 := by
  refine IntOp.cmpi_sle.2 ?_
  rw [toInt_ofNat_small p hp, toInt_ofNat_small q hq]
  omega

/-- The wrap-around of a negative index (`if i < 0 then i + n else i`) leaves it alone. -/
theorem select_wrap_ofNat_small (p : Nat) (hp : p < 2147483648) (A : BitVec 32) :
    Scalar.select (IntOp.cmpi .slt (BitVec.ofNat 32 p) 0#32) A (BitVec.ofNat 32 p) = BitVec.ofNat 32 p := by
  rw [slt_zero_ofNat_small p hp, select_zero]

/-- Clamped into `[0, hi]` with `p ≤ hi`, it is `p`. -/
theorem clamp_ofNat_small (p hi : Nat) (hp : p < 2147483648) (hpi : p ≤ hi) :
    min (BitVec.ofNat 32 p).toInt.toNat hi = p := by
  rw [toNat_toInt_ofNat_small p hp]; omega

/-- A left fold by `and` from 1 over ones is 1. -/
theorem foldl_andi_ones {ι : Type} (g : ι → BitVec 1) :
    ∀ (l : List ι), (∀ i ∈ l, g i = 1#1) → l.foldl (fun r i => IntOp.andi r (g i)) 1#1 = 1#1
  | [], _ => rfl
  | a :: l, h => by
    rw [List.foldl_cons, h a (List.mem_cons_self ..)]
    exact foldl_andi_ones g l fun i hi => h i (List.mem_cons_of_mem _ hi)

/-- A reduction by `and` from the constant 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ fun i _ => hx i

end Cert.LibWords

end
-- ==== Proof.TakeWeights.lean ====
/-
  The weight matrix the kernel is handed.

  Before the launch the program takes the columns of `W` in the order of a literal table of 256 column numbers, entry
  `k = j·4 + c` of the table being `c·64 + j`, and transposes: `wt[k, e] = W[e, c·64 + j]`. The take is spelt with its
  guards: a negative entry is wrapped round by 256, the gather reads its index signed and clamped into `[0, 255]`, and an
  entry outside `[0, 255]` would select a not-a-number instead of the gathered value. Every entry of the table lies in
  `[0, 255]`, so no guard fires.
-/
import proofs.«131283_j52218212385438_2_alg».proof.Proof.Gen.KernelIdeal
import proofs.«131283_j52218212385438_2_alg».proof.Proof.Spec
import proofs.«131283_j52218212385438_2_alg».proof.Proof.LibWords
import Idealize.ShloMosaic.Lib.Pipeline.Value
import Idealize.ShloMosaic.Lib.ValueIdx

noncomputable section

namespace Cert.KernelIdeal.Take

open Cert.KernelIdeal Cert.KernelIdeal.Gen Idealize.ShloMosaic Idealize.ShloMosaic.ValueIdx
open Cert.PatchLinear Cert.LibWords

variable {F : FTy → Type} [FloatOps F]

/-! ## The program's terms -/

/-- The literal table of column numbers, as the 32-bit words the program holds. -/
def permWords : IVec S256 32 := fun i => lit0 (S256.rowMajor i)

/-- The table after the wrap-around of negative entries, as the one-column array the gather takes its indices from. -/
def takeCol : IVec S256x1 32 :=
  broadcastInDim S256x1 ![0] bcast_S256_S256x1_0
    (select (cmpi .slt permWords (broadcastInDim S256 ![] bcast_S_S256 (constantI S_ 32 0#32)))
      (addi permWords (broadcastInDim S256 ![] bcast_S_S256 (constantI S_ 32 256#32))) permWords)

/-- Per entry of the table, whether it lies in `[0, 255]`. -/
def takeOk : IVec S256 1 :=
  Host.reduce IntOp.andi
    (andi (cmpi .sge takeCol (broadcastInDim S256x1 ![] bcast_S_S256x1 (constantI S_ 32 0#32)))
      (cmpi .sle takeCol (broadcastInDim S256x1 ![0, 1] bcast_S1x1_S256x1_0_1
        (broadcastInDim S1x1 ![1] bcast_S1_S1x1_1 (constantI S1 32 255#32)))))
    (constantI S_ 1 1#1) reducesTo_S256x1_S256_d1 h_S_

/-- The matrix the kernel's second window is laid over, from the weights `W`. -/
def wtOf (W : S256x256.Idx → Elt F .f32) : S256x256.Idx → Elt F .f32 :=
  transpose S256x256 [1, 0]
    (select (broadcastInDim S256x256 ![1] bcast_S256_S256x256_1 takeOk)
      (Host.gather gather_S256x256_S256x1_S256x256_0_1_n_n_1_1_2561 W takeCol)
      (broadcastInDim S256x256 ![] bcast_S_S256x256 (constant S_ .f32 0x7FC00000#32)))
    transposes_S256x256_S256x256_1_0

/-! ## The table -/

/-- Entry `k = j·4 + c` of the table is `c·64 + j`: decided over its 256 entries. -/
theorem perm_word : ∀ k : Fin 256, lit0 k = BitVec.ofNat 32 ((k.val % 4) * 64 + k.val / 4) := by decide +kernel

theorem permWords_at (i : S256.Idx) : permWords i = BitVec.ofNat 32 (((i 0).val % 4) * 64 + (i 0).val / 4) := by
  show lit0 (S256.rowMajor i) = _
  exact (perm_word (S256.rowMajor i)).trans
    (congrArg (fun v : Nat => BitVec.ofNat 32 ((v % 4) * 64 + v / 4)) (Shape.rowMajor_val_one i))

/-- The wrap-around leaves every entry alone. -/
theorem takeCol_at (i : S256x1.Idx) : takeCol i = BitVec.ofNat 32 (((i 0).val % 4) * 64 + (i 0).val / 4) := by
  have hi : (i 0).val < 256 := (i 0).isLt
  unfold takeCol
  rw [broadcastInDim_apply _ bcast_S256_S256x1_0 _ i (ix1 ⟨(i 0).val, hi⟩) (fun a => by
    match a with
    | ⟨0, _⟩ => show (i 0).val = if (256 : Nat) = 1 then 0 else (i 0).val; rw [if_neg (by decide)])]
  show Scalar.select (IntOp.cmpi .slt (permWords (ix1 ⟨(i 0).val, hi⟩)) 0#32)
    (IntOp.addi (permWords (ix1 ⟨(i 0).val, hi⟩)) 256#32) (permWords (ix1 ⟨(i 0).val, hi⟩)) = _
  rw [permWords_at]
  exact select_wrap_ofNat_small _ (by show ((i 0).val % 4) * 64 + (i 0).val / 4 < 2147483648; omega) _

/-- Every entry lies in `[0, 255]`. -/
theorem takeOk_at (j : S256.Idx) : takeOk j = 1#1 := by
  unfold takeOk
  refine reduce_andi_ones _ _ _ _ (fun i => ?_) (fun _ => rfl) j
  have hi : (i 0).val < 256 := (i 0).isLt
  show IntOp.andi (IntOp.cmpi .sge (takeCol i) 0#32) (IntOp.cmpi .sle (takeCol i) (BitVec.ofNat 32 255)) = 1#1
  rw [takeCol_at, sge_zero_ofNat_small _ (by omega), sle_ofNat_small _ 255 (by omega) (by decide) (by omega)]
  rfl

/-! ## The gather -/

/-- Along the rows the gather reads the result's own row. -/
theorem gatherW_ax0 {w : Nat} (i : S256x256.Idx) (idx : IVec S256x1 w) :
    (gather_S256x256_S256x1_S256x256_0_1_n_n_1_1_2561.operandIdx i idx 0).val = (i 0).val := by
  show gather_S256x256_S256x1_S256x256_0_1_n_n_1_1_2561.start i idx 0 + gather_S256x256_S256x1_S256x256_0_1_n_n_1_1_2561.batchCoord i 0 + gather_S256x256_S256x1_S256x256_0_1_n_n_1_1_2561.offCoord i 0 = _
  rw [GatherDims.batchCoord_eq_zero _ _ _ (by decide)]
  unfold GatherDims.start GatherDims.offCoord
  rw [dif_neg (by decide), dif_pos (by decide)]
  simp only [Nat.zero_add, Nat.add_zero]
  rfl

/-- Along the columns it reads the index of the result's column, signed and clamped. -/
theorem gatherW_ax1 {w : Nat} (e k : Fin 256) (idx : IVec S256x1 w) :
    (gather_S256x256_S256x1_S256x256_0_1_n_n_1_1_2561.operandIdx (ix2 e k) idx 1).val = min (idx (ix2 k 0)).toInt.toNat 255 := by
  show gather_S256x256_S256x1_S256x256_0_1_n_n_1_1_2561.start _ idx 1 + gather_S256x256_S256x1_S256x256_0_1_n_n_1_1_2561.batchCoord _ 1 + gather_S256x256_S256x1_S256x256_0_1_n_n_1_1_2561.offCoord _ 1 = _
  rw [GatherDims.batchCoord_eq_zero _ _ _ (by decide), GatherDims.offCoord_eq_zero _ _ _ (by decide)]
  simp only [Nat.add_zero]
  unfold GatherDims.start
  rw [dif_pos (by decide)]
  have hsi : gather_S256x256_S256x1_S256x256_0_1_n_n_1_1_2561.siIdx (ix2 e k)
      ⟨List.idxOf (1 : Fin S256x256.rank) gather_S256x256_S256x1_S256x256_0_1_n_n_1_1_2561.startIndexMap, List.idxOf_lt_length_iff.2 (by decide)⟩ = ix2 k 0 := by
    funext a; refine Fin.ext ?_
    match a with
    | ⟨0, _⟩ => rfl
    | ⟨1, _⟩ => rfl
  rw [hsi]
  rfl

/-- The gather at `(e, k)`: row `e` of the operand at the clamped index of column `k`. -/
theorem gatherW_at {α : Type} {w : Nat} (W : S256x256.Idx → α) (idx : IVec S256x1 w) (e k : Fin 256) :
    Host.gather gather_S256x256_S256x1_S256x256_0_1_n_n_1_1_2561 W idx (ix2 e k) = W (ix2 e ⟨min (idx (ix2 k 0)).toInt.toNat 255, by omega⟩) := by
  unfold Host.gather
  congr 1
  funext a
  refine Fin.ext ?_
  match a with
  | ⟨0, _⟩ => exact gatherW_ax0 _ _
  | ⟨1, _⟩ => exact gatherW_ax1 e k idx

/-! ## The matrix at an entry -/

/-- Row `k = j·4 + c`, column `e` of the kernel's matrix is `W[e, c·64 + j]`. -/
theorem wtOf_at (W : S256x256.Idx → Elt F .f32) (k e : Fin 256) : wtOf W (ix2 k e) = W (ix2 e (unshuffle k)) := by
  have hk : k.val < 256 := k.isLt
  unfold wtOf
  rw [transpose_apply [1, 0] _ transposes_S256x256_S256x256_1_0 (ix2 k e) (ix2 e k) (fun b => by
    match b with
    | ⟨0, _⟩ => rfl
    | ⟨1, _⟩ => rfl)]
  rw [select_apply, broadcastInDim_apply _ bcast_S256_S256x256_1 takeOk (ix2 e k) (ix1 k) (fun a => by
    match a with
    | ⟨0, _⟩ => show k.val = if (256 : Nat) = 1 then 0 else k.val; rw [if_neg (by decide)])]
  rw [takeOk_at, select_one, gatherW_at]
  refine congrArg W (congrArg (fun s => ix2 e s) (Fin.ext ?_))
  show min (takeCol (ix2 k 0)).toInt.toNat 255 = (k.val % 4) * 64 + k.val / 4
  rw [takeCol_at]
  exact clamp_ofNat_small _ 255 (by show (k.val % 4) * 64 + k.val / 4 < 2147483648; omega)
    (by show (k.val % 4) * 64 + k.val / 4 ≤ 255; omega)

end Cert.KernelIdeal.Take

end
-- ==== Proof.KernelHost.lean ====
/-
  The three arrays the launch is laid over, as functions of the arguments.

  Before the launch the program re-reads `x` twice (to `[256, 512, 256]`, then to `[131072, 256]`), takes and transposes
  the weights, and re-reads the bias as a row. Running those lines from the launch contents gives each array as the lines'
  composed term of the argument it is made from.
-/
import proofs.«131283_j52218212385438_2_alg».proof.Proof.Gen.KernelIdeal.Frame
import proofs.«131283_j52218212385438_2_alg».proof.Proof.TakeWeights
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Cert.KernelIdeal.Take

variable {F : FTy → Type} [FloatOps F]
variable (m : (ℓ : Loc nD τ sig) → Buf (Elt F) ℓ)

/-- The row matrix: `x` re-read to `[256, 512, 256]` and then to `[131072, 256]`. -/
theorem V_rows (c : Dev nD) :
    (V m c main_v1 : S131072x256.Idx → Elt F .f32)
      = shapeCast S131072x256
          (shapeCast S256x512x256 (m ((c : Thread nD τ).loc main_arg0)) shapeCasts_S256x32768x4_S256x512x256)
          shapeCasts_S256x512x256_S131072x256 := by
  unfold V V0
  simp only [hostOps0, hostOps0_1, hostOps0_2, List.flatten_cons, List.flatten_nil, List.append_nil, List.cons_append,
    List.nil_append]
  after_results
  rfl

/-- The bias row. -/
theorem V_bias (c : Dev nD) :
    (V m c main_v4 : S1x256.Idx → Elt F .f32) = shapeCast S1x256 (m ((c : Thread nD τ).loc main_arg2)) shapeCasts_S256_S1x256 := by
  unfold V V0
  simp only [hostOps0, hostOps0_1, hostOps0_2, List.flatten_cons, List.flatten_nil, List.append_nil, List.cons_append,
    List.nil_append]
  after_results
  rfl

set_option maxHeartbeats 4000000 in
/-- The weight matrix: the guarded take of `W`'s columns, transposed. -/
theorem V_wt (c : Dev nD) :
    (V m c main_v3 : S256x256.Idx → Elt F .f32) = wtOf (m ((c : Thread nD τ).loc main_arg1)) := by
  unfold V V0
  simp only [hostOps0, hostOps0_1, hostOps0_2, List.flatten_cons, List.flatten_nil, List.append_nil, List.cons_append,
    List.nil_append]
  after_results
  rfl

end Cert.KernelIdeal.HostSide

end
-- ==== Proof.Bridge.lean ====
/-
  The kernel's program computes the specification.

  The launch is laid over three arrays made from the arguments: the rows — `x` re-read as `[131072, 256]`, row
  `b·512 + n` being patch `n` of batch `b` in memory order, position `k = j·4 + c` holding `x[b, n·64 + j, c]` —, the
  permuted and transposed weights `wt[k, e] = W[e, c·64 + j]`, and the bias as a row. Its result, re-read as
  `[256, 512, 256]`, has at `(b, n, e)` the memory-order sum of the specification's entry, which is the channel-major sum.
-/
import proofs.«131283_j52218212385438_2_alg».proof.Proof.Payload
import proofs.«131283_j52218212385438_2_alg».proof.Proof.TakeWeights
import proofs.«131283_j52218212385438_2_alg».proof.Proof.Spec

noncomputable section

open scoped BigOperators

namespace Cert.KernelIdeal.Bridge

open Cert.KernelIdeal Cert.KernelIdeal.Gen Idealize.ShloMosaic Idealize.ShloMosaic.ValueIdx
open Cert.PatchLinear Cert.KernelIdeal.Body Cert.KernelIdeal.Take

/-- Row `b·512 + n`, position `k = j·4 + c` of the row matrix is `x[b, n·64 + j, c]`. -/
theorem rows_at (x : S256x32768x4.Idx → EReal) (b : Fin 256) (n : Fin 512) (k : Fin 256)
    (h : b.val * 512 + n.val < 131072) :
    shapeCast S131072x256 (shapeCast S256x512x256 x shapeCasts_S256x32768x4_S256x512x256) shapeCasts_S256x512x256_S131072x256
        (ix2 ⟨b.val * 512 + n.val, h⟩ k)
      = x (ix3 b (step n (rawPos k)) (rawChan k)) := by
  have hb := b.isLt; have hn := n.isLt; have hk := k.isLt
  rw [shapeCast_apply _ shapeCasts_S256x512x256_S131072x256 _ (ix3 b n k) (by
    rewrite [Shape.rowMajor_val_three, Shape.rowMajor_val_two]
    show (b.val * 512 + n.val) * 256 + k.val = (b.val * 512 + n.val) * 256 + k.val
    rfl)]
  rw [shapeCast_apply _ shapeCasts_S256x32768x4_S256x512x256 _ (ix3 b (step n (rawPos k)) (rawChan k)) (by
    rewrite [Shape.rowMajor_val_three, Shape.rowMajor_val_three]
    show (b.val * 32768 + (n.val * 64 + k.val / 4)) * 4 + k.val % 4 = (b.val * 512 + n.val) * 256 + k.val
    omega)]

/-- The bias row's entry `e` is the bias's. -/
theorem bias_row_at (bias : S256.Idx → EReal) (e : Fin 256) :
    shapeCast S1x256 bias shapeCasts_S256_S1x256 (ix2 0 e) = bias (ix1 e) := by
  rw [shapeCast_apply _ shapeCasts_S256_S1x256 _ (ix1 e) (by
    rewrite [Shape.rowMajor_val_one, Shape.rowMajor_val_two]
    show e.val = 0 * 256 + e.val
    omega)]

/-- The launch's result over those three arrays, re-read as `[256, 512, 256]`, is the specification. -/
theorem kernel_eq (x : S256x32768x4.Idx → EReal) (W : S256x256.Idx → EReal) (bias : S256.Idx → EReal) :
    shapeCast S256x512x256
        (rowsOut
          (shapeCast S131072x256 (shapeCast S256x512x256 x shapeCasts_S256x32768x4_S256x512x256) shapeCasts_S256x512x256_S131072x256)
          (wtOf (F := Ideal) W) (shapeCast S1x256 bias shapeCasts_S256_S1x256))
        shapeCasts_S131072x256_S256x512x256
      = out x W bias := by
  funext i
  obtain ⟨b, n, e, rfl⟩ : ∃ (b : Fin 256) (n : Fin 512) (e : Fin 256), i = ix3 b n e := ⟨i 0, i 1, i 2, eq_ix3 i⟩
  have hb := b.isLt; have hn := n.isLt
  have hr : b.val * 512 + n.val < 131072 := by omega
  rw [shapeCast_apply _ shapeCasts_S131072x256_S256x512x256 _ (ix2 ⟨b.val * 512 + n.val, hr⟩ e) (by
    rewrite [Shape.rowMajor_val_two, Shape.rowMajor_val_three]
    show (b.val * 512 + n.val) * 256 + e.val = (b.val * 512 + n.val) * 256 + e.val
    rfl)]
  show max ((∑ k : Fin 256,
      shapeCast S131072x256 (shapeCast S256x512x256 x shapeCasts_S256x32768x4_S256x512x256) shapeCasts_S256x512x256_S131072x256
          (ix2 ⟨b.val * 512 + n.val, hr⟩ k) * wtOf (F := Ideal) W (ix2 k e))
      + shapeCast S1x256 bias shapeCasts_S256_S1x256 (ix2 0 e)) (Ideal.ofBits .f32 0x00000000#32) = linRelu x W bias b n e
  simp only [rows_at, wtOf_at, bias_row_at]
  exact linRelu_raw x W bias b n e

end Cert.KernelIdeal.Bridge

end
-- ==== Proof.KernelRun.lean ====
/-
  The kernel's program, run.

  Every weakly fair execution ends with the result buffer at the launch's output array re-read as `[256, 512, 256]`, which
  is the specification of the three argument arrays, and with the argument arrays as they were.
-/
import proofs.«131283_j52218212385438_2_alg».proof.Proof.KernelValue
import proofs.«131283_j52218212385438_2_alg».proof.Proof.KernelHost
import proofs.«131283_j52218212385438_2_alg».proof.Proof.Bridge
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.StableHlo
open Cert.KernelIdeal.Body Cert.KernelIdeal.Take

variable (m : (ℓ : Loc nD τ sig) → Buf (Elt Ideal) ℓ) (ρ : Dev nD → PrngReg)

/-- After the frame run the result buffer holds the specification of the arguments. -/
theorem result_of_post (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v6)
      = Cert.PatchLinear.out (m ((c : Thread nD τ).loc main_arg0)) (m ((c : Thread nD τ).loc main_arg1))
          (m ((c : Thread nD τ).loc main_arg2)) := by
  refine ((h c).2 main_v6 (Pipeline.mem_restRefs_of main_v6 (by decide) (by decide))).trans ?_
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = rowsOut (V m c main_v1) (V m c main_v3) (V m c main_v4) :=
    (Pipeline.withArrays_arr spec0 launch0.win.arr_inj c _ _ 3).trans (KValue.final m c)
  show shapeCast S256x512x256
      (Pipeline.withArrays (cfgs 0).spec c (V0 m c) (fun w => (dats m 0 c).arrAt w (cfgs 0).N) (Proc.devRef .tc main_v5))
      shapeCasts_S131072x256_S256x512x256 = _
  rw [hw, HostSide.V_rows, HostSide.V_wt, HostSide.V_bias]
  exact Bridge.kernel_eq _ _ _

/-- At the compiled mesh, from any memory with zero counters: every weakly fair execution of the idealized kernel's @main
    terminates with the result buffer at the specification of the argument arrays and the argument arrays unchanged. -/
theorem run : θ_run defs (onTc (τ := τ) (main (F := Ideal))) ⟨m, fun _ => 0, ρ⟩ fun r => ∀ c : Dev nD,
      r.2.mem ((c : Thread nD τ).loc main_v6)
        = Cert.PatchLinear.out (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨result_of_post m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefPatches.lean ====
/-
  The reference's patch extraction read at an entry.

  The reference builds the table of time steps `idx[n, j] = n·64 + j` in 32-bit integers (wrapping a negative entry
  round by the axis length, which never happens here: every entry lies in `[0, 32767]`), gathers
  `patches[b, n, j, c] = x[b, idx[n, j], c]` — the gather reads its start index signed and clamps it into the axis, which
  leaves `n·64 + j` as it is —, swaps the last two axes and flattens them: feature `d = c·64 + j` of patch `n` is
  `x[b, n·64 + j, c]`.
-/
import proofs.«131283_j52218212385438_2_alg».proof.Proof.Gen.ReferenceIdeal.Read
import proofs.«131283_j52218212385438_2_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PatchLinear

variable {F : FTy → Type} [FloatOps F]

/-! ## The integer table of time steps -/

/-- In 32-bit words, `n·64 + j` for `n < 512`, `j < 64` does not wrap, is not negative, and so is not moved by the
    wrap-around of negative indices. -/
theorem step_word (n j : Nat) (hn : n < 512) (hj : j < 64) :
    Scalar.select (IntOp.cmpi .slt (IntOp.addi (IntOp.muli (BitVec.ofNat 32 n) 64#32) (BitVec.ofNat 32 j)) 0#32)
        (IntOp.addi (IntOp.addi (IntOp.muli (BitVec.ofNat 32 n) 64#32) (BitVec.ofNat 32 j)) 32768#32)
        (IntOp.addi (IntOp.muli (BitVec.ofNat 32 n) 64#32) (BitVec.ofNat 32 j))
      = BitVec.ofNat 32 (n * 64 + j) := by
  have hW : IntOp.addi (IntOp.muli (BitVec.ofNat 32 n) 64#32) (BitVec.ofNat 32 j) = BitVec.ofNat 32 (n * 64 + j) := by
    show BitVec.ofNat 32 n * BitVec.ofNat 32 64 + BitVec.ofNat 32 j = _
    rw [← BitVec.ofNat_mul, ← BitVec.ofNat_add]
  rw [hW]
  have hlt : (BitVec.ofNat 32 (n * 64 + j)).slt 0#32 = false := by
    rw [BitVec.slt_eq_decide, decide_eq_false_iff_not,
      BitVec.toInt_eq_toNat_of_lt (by rw [BitVec.toNat_ofNat]; omega)]
    show ¬ ((BitVec.ofNat 32 (n * 64 + j)).toNat : Int) < 0
    omega
  have hneg : IntOp.cmpi .slt (BitVec.ofNat 32 (n * 64 + j)) 0#32 = 0#1 := by
    show BitVec.ofBool ((BitVec.ofNat 32 (n * 64 + j)).slt 0#32) = 0#1
    rw [hlt]; rfl
  rw [hneg, select_zero]

/-- Read signed and clamped into the axis of 32768 steps, that word is `n·64 + j`. -/
theorem step_clamp (n j : Nat) (hn : n < 512) (hj : j < 64) :
    min (BitVec.ofNat 32 (n * 64 + j)).toInt.toNat 32767 = n * 64 + j := by
  rw [BitVec.toInt_eq_toNat_of_lt (by rw [BitVec.toNat_ofNat]; omega), Int.toNat_natCast, BitVec.toNat_ofNat]
  omega

/-- The table's entry for step `j` of patch `n`. -/
theorem table_at (n : Fin 512) (j : Fin 64) :
    val_main_v14 (F := F) (ix3 n j 0) = BitVec.ofNat 32 (n.val * 64 + j.val) := by
  rw [val_main_v14_apply, val_main_v13_apply, val_main_v10_apply, val_main_v12_apply, val_main_v8_apply,
    val_main_v6_apply, val_main_v7_apply, val_main_v3_apply, val_main_v1_apply, val_main_v2_apply, val_main_v5_apply,
    val_main_v9_apply, val_main_v11_apply, val_main_v0_apply, val_main_v4_apply, val_main_c_apply, val_main_c_0_apply,
    val_main_c_1_apply]
  exact step_word n.val j.val n.isLt j.isLt

/-! ## The gather -/

/-- Along the batch axis the gather reads the result's own coordinate. -/
theorem gather_ax0 {w : Nat} (i : S256x512x64x4.Idx) (idx : IVec S512x64x1 w) :
    (gather_S256x32768x4_S512x64x1_S256x512x64x4_03_1_n_n_1_2_25614.operandIdx i idx 0).val = (i 0).val := by
  show gather_S256x32768x4_S512x64x1_S256x512x64x4_03_1_n_n_1_2_25614.start i idx 0 + gather_S256x32768x4_S512x64x1_S256x512x64x4_03_1_n_n_1_2_25614.batchCoord i 0 + gather_S256x32768x4_S512x64x1_S256x512x64x4_03_1_n_n_1_2_25614.offCoord i 0 = _
  rw [GatherDims.batchCoord_eq_zero _ _ _ (by decide)]
  unfold GatherDims.start GatherDims.offCoord
  rw [dif_neg (by decide), dif_pos (by decide)]
  simp only [Nat.zero_add, Nat.add_zero]
  rfl

/-- Along the channel axis too. -/
theorem gather_ax2 {w : Nat} (i : S256x512x64x4.Idx) (idx : IVec S512x64x1 w) :
    (gather_S256x32768x4_S512x64x1_S256x512x64x4_03_1_n_n_1_2_25614.operandIdx i idx 2).val = (i 3).val := by
  show gather_S256x32768x4_S512x64x1_S256x512x64x4_03_1_n_n_1_2_25614.start i idx 2 + gather_S256x32768x4_S512x64x1_S256x512x64x4_03_1_n_n_1_2_25614.batchCoord i 2 + gather_S256x32768x4_S512x64x1_S256x512x64x4_03_1_n_n_1_2_25614.offCoord i 2 = _
  rw [GatherDims.batchCoord_eq_zero _ _ _ (by decide)]
  unfold GatherDims.start GatherDims.offCoord
  rw [dif_neg (by decide), dif_pos (by decide)]
  simp only [Nat.zero_add, Nat.add_zero]
  rfl

/-- Along the time axis it reads the start index of the result's patch and step, signed and clamped. -/
theorem gather_ax1 {w : Nat} (b : Fin 256) (n : Fin 512) (j : Fin 64) (c : Fin 4) (idx : IVec S512x64x1 w) :
    (gather_S256x32768x4_S512x64x1_S256x512x64x4_03_1_n_n_1_2_25614.operandIdx (ix4 b n j c) idx 1).val = min (idx (ix3 n j 0)).toInt.toNat 32767 := by
  show gather_S256x32768x4_S512x64x1_S256x512x64x4_03_1_n_n_1_2_25614.start _ idx 1 + gather_S256x32768x4_S512x64x1_S256x512x64x4_03_1_n_n_1_2_25614.batchCoord _ 1 + gather_S256x32768x4_S512x64x1_S256x512x64x4_03_1_n_n_1_2_25614.offCoord _ 1 = _
  rw [GatherDims.batchCoord_eq_zero _ _ _ (by decide), GatherDims.offCoord_eq_zero _ _ _ (by decide)]
  simp only [Nat.add_zero]
  unfold GatherDims.start
  rw [dif_pos (by decide)]
  have hsi : gather_S256x32768x4_S512x64x1_S256x512x64x4_03_1_n_n_1_2_25614.siIdx (ix4 b n j c)
      ⟨List.idxOf (1 : Fin S256x32768x4.rank) gather_S256x32768x4_S512x64x1_S256x512x64x4_03_1_n_n_1_2_25614.startIndexMap, List.idxOf_lt_length_iff.2 (by decide)⟩ = ix3 n j 0 := by
    funext a; refine Fin.ext ?_
    match a with
    | ⟨0, _⟩ => rfl
    | ⟨1, _⟩ => rfl
    | ⟨2, _⟩ => rfl
  rw [hsi]
  rfl

/-- The gather at `(b, n, j, c)`: the operand at batch `b`, the clamped start index of `(n, j)`, channel `c`. -/
theorem gather_at {α : Type} {w : Nat} (x : S256x32768x4.Idx → α) (idx : IVec S512x64x1 w)
    (b : Fin 256) (n : Fin 512) (j : Fin 64) (c : Fin 4) :
    Host.gather gather_S256x32768x4_S512x64x1_S256x512x64x4_03_1_n_n_1_2_25614 x idx (ix4 b n j c)
      = x (ix3 b ⟨min (idx (ix3 n j 0)).toInt.toNat 32767, by omega⟩ c) := by
  unfold Host.gather
  congr 1
  funext a
  refine Fin.ext ?_
  match a with
  | ⟨0, _⟩ => exact gather_ax0 _ _
  | ⟨1, _⟩ => exact gather_ax1 b n j c idx
  | ⟨2, _⟩ => exact gather_ax2 _ _

/-! ## A patch's features -/

/-- Feature `d = c·64 + j` of patch `n` of batch `b` is `x[b, n·64 + j, c]`. -/
theorem feat_at (x : (⟨S256x32768x4, .f32⟩ : BufTy).Contents (Elt F)) (b : Fin 256) (n : Fin 512) (d : Fin 256) :
    val_main_v17 (F := F) x (ix3 b n d) = x (ix3 b (step n (featPos d)) (featChan d)) := by
  rw [val_main_v17_apply, val_main_v16_apply]
  have hi : idx_main_v16 (idx_main_v17 (ix3 b n d)) = ix4 b n (featPos d) (featChan d) := by
    funext a; refine Fin.ext ?_
    have hb := b.isLt; have hn := n.isLt; have hd := d.isLt
    match a with
    | ⟨0, _⟩ => show ((b.val * 512 + n.val) * 256 + d.val) / 131072 = b.val; omega
    | ⟨1, _⟩ => show ((b.val * 512 + n.val) * 256 + d.val) / 256 % 512 = n.val; omega
    | ⟨2, _⟩ => show ((b.val * 512 + n.val) * 256 + d.val) % 64 = d.val % 64; omega
    | ⟨3, _⟩ => show ((b.val * 512 + n.val) * 256 + d.val) / 64 % 4 = d.val / 64; omega
  rw [hi]
  unfold val_main_v15
  rw [gather_at]
  refine congrArg x ?_
  refine congrArg (fun s => ix3 b s (featChan d)) (Fin.ext ?_)
  show min (val_main_v14 (F := F) (ix3 n (featPos d) 0)).toInt.toNat 32767 = n.val * 64 + (featPos d).val
  rw [table_at, step_clamp _ _ n.isLt (featPos d).isLt]

end Cert.ReferenceIdeal.RefValue

end
-- ==== Proof.RefValue.lean ====
/-
  The reference computes the specification.

  Read at an entry `(b, n, e)`, the reference's result is the rectifier of the contraction of patch `n`'s channel-major
  features against row `e` of the weights plus the bias entry `e`; with a feature read as `x[b, n·64 + j, c]` that is the
  specification's entry word for word.
-/
import proofs.«131283_j52218212385438_2_alg».proof.Proof.RefPatches

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PatchLinear

/-- The reference's result array is the specification's, as functions of the three argument arrays. -/
theorem ref_eq (x : (⟨S256x32768x4, .f32⟩ : BufTy).Contents (Elt Ideal)) (W : (⟨S256x256, .f32⟩ : BufTy).Contents (Elt Ideal))
    (bias : (⟨S256, .f32⟩ : BufTy).Contents (Elt Ideal)) :
    val_main_v22 (F := Ideal) x W bias = out x W bias := by
  funext i
  obtain ⟨b, n, e, rfl⟩ : ∃ (b : Fin 256) (n : Fin 512) (e : Fin 256), i = ix3 b n e := ⟨i 0, i 1, i 2, eq_ix3 i⟩
  rw [val_main_v22_apply, val_main_v21_apply, val_main_v18_apply, val_main_v20_apply, val_main_v19_apply,
    val_main_call0_v0_apply, val_main_call0_cst_apply]
  have hl : ∀ k : Fin 256, lidx_main_v18 (ix3 b n e) k = ix3 b n k := fun k => funext fun a => Fin.ext (by
    match a with
    | ⟨0, _⟩ => rfl
    | ⟨1, _⟩ => rfl
    | ⟨2, _⟩ => rfl)
  have hr : ∀ k : Fin 256, ridx_main_v18 (ix3 b n e) k = ix2 e k := fun k => funext fun a => Fin.ext (by
    match a with
    | ⟨0, _⟩ => rfl
    | ⟨1, _⟩ => rfl)
  have hb : idx_main_v19 (idx_main_v20 (ix3 b n e)) = ix1 e := funext fun a => Fin.ext (by
    match a with
    | ⟨0, _⟩ => rfl)
  simp only [hl, hr, hb, feat_at]
  rfl

end Cert.ReferenceIdeal.RefValue

end
-- ==== Proof.lean ====
/-
  The kernel cuts `x : [256, 32768, 4]` into 512 patches of 64 time steps by re-reading it as `[131072, 256]` (a patch's
  256 numbers in memory order, step-major), permutes the columns of the `[256, 256]` weights to that order once on the
  host, and runs one fused pass `max (rows · wt + bias) 0` over blocks of 8192 rows. The reference gathers the patches,
  swaps steps and channels (channel-major features), contracts them against the weights, adds the bias and rectifies.

  On the extended reals both compute, at batch `b`, patch `n`, output feature `e`,
  `max (Σ_{c, j} x[b, n·64 + j, c] · W[e, c·64 + j] + bias[e]) 0`:
  the kernel lists the 256 products step-major, the reference channel-major, and a finite sum does not depend on the order
  of its terms. No finiteness of the inputs is used.

  The modules: `Spec` (the formula and the reordering of the sum), `Payload` (the kernel body at an entry),
  `KernelValue` (the 16 blocks make up the output array), `TakeWeights` and `KernelHost` (the arrays the launch is laid
  over, from the arguments), `Bridge` (the kernel's program computes the formula), `KernelRun` (its run), `RefPatches`
  and `RefValue` (the reference computes the formula), `LibWords` (small naturals as signed 32-bit words).
  The frames of the two kernel programs are the generated ones; the reference's frame is its generated run with the
  result dropped; the idealization rewrote nothing, so it is preserved trivially.
-/
import proofs.«131283_j52218212385438_2_alg».proof.Defs
import proofs.«131283_j52218212385438_2_alg».proof.Proof.Gen.Kernel
import proofs.«131283_j52218212385438_2_alg».proof.Proof.Gen.Kernel.Skeleton
import proofs.«131283_j52218212385438_2_alg».proof.Proof.Gen.Kernel.Launch
import proofs.«131283_j52218212385438_2_alg».proof.Proof.Gen.Kernel.Points
import proofs.«131283_j52218212385438_2_alg».proof.Proof.Gen.Kernel.Frame
import proofs.«131283_j52218212385438_2_alg».proof.Proof.Gen.KernelIdeal
import proofs.«131283_j52218212385438_2_alg».proof.Proof.Gen.KernelIdeal.Skeleton
import proofs.«131283_j52218212385438_2_alg».proof.Proof.Gen.KernelIdeal.Launch
import proofs.«131283_j52218212385438_2_alg».proof.Proof.Gen.KernelIdeal.Points
import proofs.«131283_j52218212385438_2_alg».proof.Proof.Gen.KernelIdeal.Frame
import proofs.«131283_j52218212385438_2_alg».proof.Proof.Gen.ReferenceIdeal
import proofs.«131283_j52218212385438_2_alg».proof.Proof.Gen.ReferenceIdeal.Run
import proofs.«131283_j52218212385438_2_alg».proof.Proof.Gen.ReferenceIdeal.Read
import proofs.«131283_j52218212385438_2_alg».proof.Proof.Gen.Pre_finite_inputs
import proofs.«131283_j52218212385438_2_alg».proof.Proof.KernelRun
import proofs.«131283_j52218212385438_2_alg».proof.Proof.RefValue
import Idealize.ShloMosaic.Adequacy
import Idealize.ShloMosaic.Init

noncomputable section

namespace Cert.Proof

open Idealize.ShloMosaic Idealize.ShloMosaic.TcCoe Idealize.SL.Sem

/-- Both idealized programs end with the specification of the (agreeing) arguments in their result buffers. -/
theorem algebraic : Cert.algebraic_KernelIdeal_ReferenceIdeal := by
  intro m ρ m' ρ' _ hagree
  refine ⟨fun c => Cert.PatchLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v22_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
